-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4096x2048 : Shape := ⟨2, ![4096, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4x2048x2048 .f32) (main_arg1 : FVec F S4096x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4x2048x2048 : Shape := ⟨3, ![4, 2048, 2048]⟩
abbrev S4096x2048 : Shape := ⟨2, ![4096, 2048]⟩
abbrev S2048x4096 : Shape := ⟨2, ![2048, 4096]⟩
abbrev S2048x1 : Shape := ⟨2, ![2048, 1]⟩
abbrev S2048x4095 : Shape := ⟨2, ![2048, 4095]⟩
abbrev S1x4096 : Shape := ⟨2, ![1, 4096]⟩
abbrev S2047x4096 : Shape := ⟨2, ![2047, 4096]⟩
abbrev S2048x2 : Shape := ⟨2, ![2048, 2]⟩
abbrev S2048x4094 : Shape := ⟨2, ![2048, 4094]⟩
abbrev S2x4096 : Shape := ⟨2, ![2, 4096]⟩
abbrev S2046x4096 : Shape := ⟨2, ![2046, 4096]⟩
abbrev S2048x3 : Shape := ⟨2, ![2048, 3]⟩
abbrev S2048x4093 : Shape := ⟨2, ![2048, 4093]⟩
abbrev S3x4096 : Shape := ⟨2, ![3, 4096]⟩
abbrev S2045x4096 : Shape := ⟨2, ![2045, 4096]⟩
abbrev S2048x4 : Shape := ⟨2, ![2048, 4]⟩
abbrev S2048x4092 : Shape := ⟨2, ![2048, 4092]⟩
abbrev S4x4096 : Shape := ⟨2, ![4, 4096]⟩
abbrev S2044x4096 : Shape := ⟨2, ![2044, 4096]⟩
abbrev S2048x5 : Shape := ⟨2, ![2048, 5]⟩
abbrev S2048x4091 : Shape := ⟨2, ![2048, 4091]⟩
abbrev S5x4096 : Shape := ⟨2, ![5, 4096]⟩
abbrev S2043x4096 : Shape := ⟨2, ![2043, 4096]⟩
abbrev S8192x2048 : Shape := ⟨2, ![8192, 2048]⟩
abbrev S8192x4096 : Shape := ⟨2, ![8192, 4096]⟩
abbrev S4x2048x4096 : Shape := ⟨3, ![4, 2048, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 51
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S4096x2048, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1, .f32⟩
  | .hbm, ⟨8, _⟩ => ⟨S2048x4095, .f32⟩
  | .hbm, ⟨9, _⟩ => ⟨S2048x4096, .f32⟩
  | .hbm, ⟨10, _⟩ => ⟨S2048x4096, .f32⟩
  | .hbm, ⟨11, _⟩ => ⟨S1x4096, .f32⟩
  | .hbm, ⟨12, _⟩ => ⟨S2047x4096, .f32⟩
  | .hbm, ⟨13, _⟩ => ⟨S2048x4096, .f32⟩
  | .hbm, ⟨14, _⟩ => ⟨S2048x4096, .f32⟩
  | .hbm, ⟨15, _⟩ => ⟨S2048x2, .f32⟩
  | .hbm, ⟨16, _⟩ => ⟨S2048x4094, .f32⟩
  | .hbm, ⟨17, _⟩ => ⟨S2048x4096, .f32⟩
  | .hbm, ⟨18, _⟩ => ⟨S2048x4096, .f32⟩
  | .hbm, ⟨19, _⟩ => ⟨S2x4096, .f32⟩
  | .hbm, ⟨20, _⟩ => ⟨S2046x4096, .f32⟩
  | .hbm, ⟨21, _⟩ => ⟨S2048x4096, .f32⟩
  | .hbm, ⟨22, _⟩ => ⟨S2048x4096, .f32⟩
  | .hbm, ⟨23, _⟩ => ⟨S2048x3, .f32⟩
  | .hbm, ⟨24, _⟩ => ⟨S2048x4093, .f32⟩
  | .hbm, ⟨25, _⟩ => ⟨S2048x4096, .f32⟩
  | .hbm, ⟨26, _⟩ => ⟨S2048x4096, .f32⟩
  | .hbm, ⟨27, _⟩ => ⟨S3x4096, .f32⟩
  | .hbm, ⟨28, _⟩ => ⟨S2045x4096, .f32⟩
  | .hbm, ⟨29, _⟩ => ⟨S2048x4096, .f32⟩
  | .hbm, ⟨30, _⟩ => ⟨S2048x4096, .f32⟩
  | .hbm, ⟨31, _⟩ => ⟨S2048x4, .f32⟩
  | .hbm, ⟨32, _⟩ => ⟨S2048x4092, .f32⟩
  | .hbm, ⟨33, _⟩ => ⟨S2048x4096, .f32⟩
  | .hbm, ⟨34, _⟩ => ⟨S2048x4096, .f32⟩
  | .hbm, ⟨35, _⟩ => ⟨S4x4096, .f32⟩
  | .hbm, ⟨36, _⟩ => ⟨S2044x4096, .f32⟩
  | .hbm, ⟨37, _⟩ => ⟨S2048x4096, .f32⟩
  | .hbm, ⟨38, _⟩ => ⟨S2048x4096, .f32⟩
  | .hbm, ⟨39, _⟩ => ⟨S2048x5, .f32⟩
  | .hbm, ⟨40, _⟩ => ⟨S2048x4091, .f32⟩
  | .hbm, ⟨41, _⟩ => ⟨S2048x4096, .f32⟩
  | .hbm, ⟨42, _⟩ => ⟨S2048x4096, .f32⟩
  | .hbm, ⟨43, _⟩ => ⟨S5x4096, .f32⟩
  | .hbm, ⟨44, _⟩ => ⟨S2043x4096, .f32⟩
  | .hbm, ⟨45, _⟩ => ⟨S2048x4096, .f32⟩
  | .hbm, ⟨46, _⟩ => ⟨S2048x4096, .f32⟩
  | .hbm, ⟨47, _⟩ => ⟨S8192x2048, .f32⟩
  | .hbm, ⟨48, _⟩ => ⟨S2048x4096, .bf16⟩
  | .hbm, ⟨49, _⟩ => ⟨S8192x4096, .f32⟩
  | .hbm, ⟨50, _⟩ => ⟨S4x2048x4096, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_call2_v0 : Ref sig .tc := ⟨.hbm, 7, rfl⟩
abbrev main_call0_call2_v1 : Ref sig .tc := ⟨.hbm, 8, rfl⟩
abbrev main_call0_v5 : Ref sig .tc := ⟨.hbm, 9, rfl⟩
abbrev main_call0_v6 : Ref sig .tc := ⟨.hbm, 10, rfl⟩
abbrev main_call0_call3_v0 : Ref sig .tc := ⟨.hbm, 11, rfl⟩
abbrev main_call0_call3_v1 : Ref sig .tc := ⟨.hbm, 12, rfl⟩
abbrev main_call0_v7 : Ref sig .tc := ⟨.hbm, 13, rfl⟩
abbrev main_call0_v8 : Ref sig .tc := ⟨.hbm, 14, rfl⟩
abbrev main_call0_call4_v0 : Ref sig .tc := ⟨.hbm, 15, rfl⟩
abbrev main_call0_call4_v1 : Ref sig .tc := ⟨.hbm, 16, rfl⟩
abbrev main_call0_v9 : Ref sig .tc := ⟨.hbm, 17, rfl⟩
abbrev main_call0_v10 : Ref sig .tc := ⟨.hbm, 18, rfl⟩
abbrev main_call0_call5_v0 : Ref sig .tc := ⟨.hbm, 19, rfl⟩
abbrev main_call0_call5_v1 : Ref sig .tc := ⟨.hbm, 20, rfl⟩
abbrev main_call0_v11 : Ref sig .tc := ⟨.hbm, 21, rfl⟩
abbrev main_call0_v12 : Ref sig .tc := ⟨.hbm, 22, rfl⟩
abbrev main_call0_call6_v0 : Ref sig .tc := ⟨.hbm, 23, rfl⟩
abbrev main_call0_call6_v1 : Ref sig .tc := ⟨.hbm, 24, rfl⟩
abbrev main_call0_v13 : Ref sig .tc := ⟨.hbm, 25, rfl⟩
abbrev main_call0_v14 : Ref sig .tc := ⟨.hbm, 26, rfl⟩
abbrev main_call0_call7_v0 : Ref sig .tc := ⟨.hbm, 27, rfl⟩
abbrev main_call0_call7_v1 : Ref sig .tc := ⟨.hbm, 28, rfl⟩
abbrev main_call0_v15 : Ref sig .tc := ⟨.hbm, 29, rfl⟩
abbrev main_call0_v16 : Ref sig .tc := ⟨.hbm, 30, rfl⟩
abbrev main_call0_call8_v0 : Ref sig .tc := ⟨.hbm, 31, rfl⟩
abbrev main_call0_call8_v1 : Ref sig .tc := ⟨.hbm, 32, rfl⟩
abbrev main_call0_v17 : Ref sig .tc := ⟨.hbm, 33, rfl⟩
abbrev main_call0_v18 : Ref sig .tc := ⟨.hbm, 34, rfl⟩
abbrev main_call0_call9_v0 : Ref sig .tc := ⟨.hbm, 35, rfl⟩
abbrev main_call0_call9_v1 : Ref sig .tc := ⟨.hbm, 36, rfl⟩
abbrev main_call0_v19 : Ref sig .tc := ⟨.hbm, 37, rfl⟩
abbrev main_call0_v20 : Ref sig .tc := ⟨.hbm, 38, rfl⟩
abbrev main_call0_call10_v0 : Ref sig .tc := ⟨.hbm, 39, rfl⟩
abbrev main_call0_call10_v1 : Ref sig .tc := ⟨.hbm, 40, rfl⟩
abbrev main_call0_v21 : Ref sig .tc := ⟨.hbm, 41, rfl⟩
abbrev main_call0_v22 : Ref sig .tc := ⟨.hbm, 42, rfl⟩
abbrev main_call0_call11_v0 : Ref sig .tc := ⟨.hbm, 43, rfl⟩
abbrev main_call0_call11_v1 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_v0 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4096x2048_S2048x4096_1_0 : S4096x2048.Transposes [1, 0] S2048x4096
  slices_S2048x4096_S2048x1_0_4095 : S2048x4096.Slices ![0, 4095] S2048x1
  slices_S2048x4096_S2048x4095_0_0 : S2048x4096.Slices ![0, 0] S2048x4095
  concatenates_S2048x1_S2048x4095_S2048x4096_d1 : Shape.Concatenates [S2048x1, S2048x4095] S2048x4096 1
  slices_S2048x4096_S1x4096_2047_0 : S2048x4096.Slices ![2047, 0] S1x4096
  slices_S2048x4096_S2047x4096_0_0 : S2048x4096.Slices ![0, 0] S2047x4096
  concatenates_S1x4096_S2047x4096_S2048x4096_d0 : Shape.Concatenates [S1x4096, S2047x4096] S2048x4096 0
  slices_S2048x4096_S2048x2_0_4094 : S2048x4096.Slices ![0, 4094] S2048x2
  slices_S2048x4096_S2048x4094_0_0 : S2048x4096.Slices ![0, 0] S2048x4094
  concatenates_S2048x2_S2048x4094_S2048x4096_d1 : Shape.Concatenates [S2048x2, S2048x4094] S2048x4096 1
  slices_S2048x4096_S2x4096_2046_0 : S2048x4096.Slices ![2046, 0] S2x4096
  slices_S2048x4096_S2046x4096_0_0 : S2048x4096.Slices ![0, 0] S2046x4096
  concatenates_S2x4096_S2046x4096_S2048x4096_d0 : Shape.Concatenates [S2x4096, S2046x4096] S2048x4096 0
  slices_S2048x4096_S2048x3_0_4093 : S2048x4096.Slices ![0, 4093] S2048x3
  slices_S2048x4096_S2048x4093_0_0 : S2048x4096.Slices ![0, 0] S2048x4093
  concatenates_S2048x3_S2048x4093_S2048x4096_d1 : Shape.Concatenates [S2048x3, S2048x4093] S2048x4096 1
  slices_S2048x4096_S3x4096_2045_0 : S2048x4096.Slices ![2045, 0] S3x4096
  slices_S2048x4096_S2045x4096_0_0 : S2048x4096.Slices ![0, 0] S2045x4096
  concatenates_S3x4096_S2045x4096_S2048x4096_d0 : Shape.Concatenates [S3x4096, S2045x4096] S2048x4096 0
  slices_S2048x4096_S2048x4_0_4092 : S2048x4096.Slices ![0, 4092] S2048x4
  slices_S2048x4096_S2048x4092_0_0 : S2048x4096.Slices ![0, 0] S2048x4092
  concatenates_S2048x4_S2048x4092_S2048x4096_d1 : Shape.Concatenates [S2048x4, S2048x4092] S2048x4096 1
  slices_S2048x4096_S4x4096_2044_0 : S2048x4096.Slices ![2044, 0] S4x4096
  slices_S2048x4096_S2044x4096_0_0 : S2048x4096.Slices ![0, 0] S2044x4096
  concatenates_S4x4096_S2044x4096_S2048x4096_d0 : Shape.Concatenates [S4x4096, S2044x4096] S2048x4096 0
  slices_S2048x4096_S2048x5_0_4091 : S2048x4096.Slices ![0, 4091] S2048x5
  slices_S2048x4096_S2048x4091_0_0 : S2048x4096.Slices ![0, 0] S2048x4091
  concatenates_S2048x5_S2048x4091_S2048x4096_d1 : Shape.Concatenates [S2048x5, S2048x4091] S2048x4096 1
  slices_S2048x4096_S5x4096_2043_0 : S2048x4096.Slices ![2043, 0] S5x4096
  slices_S2048x4096_S2043x4096_0_0 : S2048x4096.Slices ![0, 0] S2043x4096
  concatenates_S5x4096_S2043x4096_S2048x4096_d0 : Shape.Concatenates [S5x4096, S2043x4096] S2048x4096 0
  shapeCasts_S4x2048x2048_S8192x2048 : S4x2048x2048.ShapeCasts S8192x2048
  bitsLt_bf16_f32 : FTy.bits .bf16 < FTy.bits .f32
  shapeCasts_S8192x4096_S4x2048x4096 : S8192x4096.ShapeCasts S4x2048x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x4096.size a
  hwx0_1 : ∀ i : grid0.Coords, EltTy.bits .bf16 = 32 ∨ (Rect.block (s := S2048x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_call0_v25) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v26) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v27) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S4096x2048 : Shape := ⟨2, ![4096, 2048]⟩
abbrev S2048x4096 : Shape := ⟨2, ![2048, 4096]⟩
abbrev S2048x1 : Shape := ⟨2, ![2048, 1]⟩
abbrev S2048x4095 : Shape := ⟨2, ![2048, 4095]⟩
abbrev S1x4096 : Shape := ⟨2, ![1, 4096]⟩
abbrev S2047x4096 : Shape := ⟨2, ![2047, 4096]⟩
abbrev S2048x2 : Shape := ⟨2, ![2048, 2]⟩
abbrev S2048x4094 : Shape := ⟨2, ![2048, 4094]⟩
abbrev S2x4096 : Shape := ⟨2, ![2, 4096]⟩
abbrev S2046x4096 : Shape := ⟨2, ![2046, 4096]⟩
abbrev S2048x3 : Shape := ⟨2, ![2048, 3]⟩
abbrev S2048x4093 : Shape := ⟨2, ![2048, 4093]⟩
abbrev S3x4096 : Shape := ⟨2, ![3, 4096]⟩
abbrev S2045x4096 : Shape := ⟨2, ![2045, 4096]⟩
abbrev S2048x4 : Shape := ⟨2, ![2048, 4]⟩
abbrev S2048x4092 : Shape := ⟨2, ![2048, 4092]⟩
abbrev S4x4096 : Shape := ⟨2, ![4, 4096]⟩
abbrev S2044x4096 : Shape := ⟨2, ![2044, 4096]⟩
abbrev S2048x5 : Shape := ⟨2, ![2048, 5]⟩
abbrev S2048x4091 : Shape := ⟨2, ![2048, 4091]⟩
abbrev S5x4096 : Shape := ⟨2, ![5, 4096]⟩
abbrev S2043x4096 : Shape := ⟨2, ![2043, 4096]⟩
abbrev S4x2048x4096 : Shape := ⟨3, ![4, 2048, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4096x2048, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1, .f32⟩
  | .hbm, ⟨8, _⟩ => ⟨S2048x4095, .f32⟩
  | .hbm, ⟨9, _⟩ => ⟨S2048x4096, .f32⟩
  | .hbm, ⟨10, _⟩ => ⟨S2048x4096, .f32⟩
  | .hbm, ⟨11, _⟩ => ⟨S1x4096, .f32⟩
  | .hbm, ⟨12, _⟩ => ⟨S2047x4096, .f32⟩
  | .hbm, ⟨13, _⟩ => ⟨S2048x4096, .f32⟩
  | .hbm, ⟨14, _⟩ => ⟨S2048x4096, .f32⟩
  | .hbm, ⟨15, _⟩ => ⟨S2048x2, .f32⟩
  | .hbm, ⟨16, _⟩ => ⟨S2048x4094, .f32⟩
  | .hbm, ⟨17, _⟩ => ⟨S2048x4096, .f32⟩
  | .hbm, ⟨18, _⟩ => ⟨S2048x4096, .f32⟩
  | .hbm, ⟨19, _⟩ => ⟨S2x4096, .f32⟩
  | .hbm, ⟨20, _⟩ => ⟨S2046x4096, .f32⟩
  | .hbm, ⟨21, _⟩ => ⟨S2048x4096, .f32⟩
  | .hbm, ⟨22, _⟩ => ⟨S2048x4096, .f32⟩
  | .hbm, ⟨23, _⟩ => ⟨S2048x3, .f32⟩
  | .hbm, ⟨24, _⟩ => ⟨S2048x4093, .f32⟩
  | .hbm, ⟨25, _⟩ => ⟨S2048x4096, .f32⟩
  | .hbm, ⟨26, _⟩ => ⟨S2048x4096, .f32⟩
  | .hbm, ⟨27, _⟩ => ⟨S3x4096, .f32⟩
  | .hbm, ⟨28, _⟩ => ⟨S2045x4096, .f32⟩
  | .hbm, ⟨29, _⟩ => ⟨S2048x4096, .f32⟩
  | .hbm, ⟨30, _⟩ => ⟨S2048x4096, .f32⟩
  | .hbm, ⟨31, _⟩ => ⟨S2048x4, .f32⟩
  | .hbm, ⟨32, _⟩ => ⟨S2048x4092, .f32⟩
  | .hbm, ⟨33, _⟩ => ⟨S2048x4096, .f32⟩
  | .hbm, ⟨34, _⟩ => ⟨S2048x4096, .f32⟩
  | .hbm, ⟨35, _⟩ => ⟨S4x4096, .f32⟩
  | .hbm, ⟨36, _⟩ => ⟨S2044x4096, .f32⟩
  | .hbm, ⟨37, _⟩ => ⟨S2048x4096, .f32⟩
  | .hbm, ⟨38, _⟩ => ⟨S2048x4096, .f32⟩
  | .hbm, ⟨39, _⟩ => ⟨S2048x5, .f32⟩
  | .hbm, ⟨40, _⟩ => ⟨S2048x4091, .f32⟩
  | .hbm, ⟨41, _⟩ => ⟨S2048x4096, .f32⟩
  | .hbm, ⟨42, _⟩ => ⟨S2048x4096, .f32⟩
  | .hbm, ⟨43, _⟩ => ⟨S5x4096, .f32⟩
  | .hbm, ⟨44, _⟩ => ⟨S2043x4096, .f32⟩
  | .hbm, ⟨45, _⟩ => ⟨S2048x4096, .f32⟩
  | .hbm, ⟨46, _⟩ => ⟨S2048x4096, .f32⟩
  | .hbm, ⟨47, _⟩ => ⟨S4x2048x4096, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call2_v0 : Ref sig .tc := ⟨.hbm, 7, rfl⟩
abbrev main_call2_v1 : Ref sig .tc := ⟨.hbm, 8, rfl⟩
abbrev main_v5 : Ref sig .tc := ⟨.hbm, 9, rfl⟩
abbrev main_v6 : Ref sig .tc := ⟨.hbm, 10, rfl⟩
abbrev main_call3_v0 : Ref sig .tc := ⟨.hbm, 11, rfl⟩
abbrev main_call3_v1 : Ref sig .tc := ⟨.hbm, 12, rfl⟩
abbrev main_v7 : Ref sig .tc := ⟨.hbm, 13, rfl⟩
abbrev main_v8 : Ref sig .tc := ⟨.hbm, 14, rfl⟩
abbrev main_call4_v0 : Ref sig .tc := ⟨.hbm, 15, rfl⟩
abbrev main_call4_v1 : Ref sig .tc := ⟨.hbm, 16, rfl⟩
abbrev main_v9 : Ref sig .tc := ⟨.hbm, 17, rfl⟩
abbrev main_v10 : Ref sig .tc := ⟨.hbm, 18, rfl⟩
abbrev main_call5_v0 : Ref sig .tc := ⟨.hbm, 19, rfl⟩
abbrev main_call5_v1 : Ref sig .tc := ⟨.hbm, 20, rfl⟩
abbrev main_v11 : Ref sig .tc := ⟨.hbm, 21, rfl⟩
abbrev main_v12 : Ref sig .tc := ⟨.hbm, 22, rfl⟩
abbrev main_call6_v0 : Ref sig .tc := ⟨.hbm, 23, rfl⟩
abbrev main_call6_v1 : Ref sig .tc := ⟨.hbm, 24, rfl⟩
abbrev main_v13 : Ref sig .tc := ⟨.hbm, 25, rfl⟩
abbrev main_v14 : Ref sig .tc := ⟨.hbm, 26, rfl⟩
abbrev main_call7_v0 : Ref sig .tc := ⟨.hbm, 27, rfl⟩
abbrev main_call7_v1 : Ref sig .tc := ⟨.hbm, 28, rfl⟩
abbrev main_v15 : Ref sig .tc := ⟨.hbm, 29, rfl⟩
abbrev main_v16 : Ref sig .tc := ⟨.hbm, 30, rfl⟩
abbrev main_call8_v0 : Ref sig .tc := ⟨.hbm, 31, rfl⟩
abbrev main_call8_v1 : Ref sig .tc := ⟨.hbm, 32, rfl⟩
abbrev main_v17 : Ref sig .tc := ⟨.hbm, 33, rfl⟩
abbrev main_v18 : Ref sig .tc := ⟨.hbm, 34, rfl⟩
abbrev main_call9_v0 : Ref sig .tc := ⟨.hbm, 35, rfl⟩
abbrev main_call9_v1 : Ref sig .tc := ⟨.hbm, 36, rfl⟩
abbrev main_v19 : Ref sig .tc := ⟨.hbm, 37, rfl⟩
abbrev main_v20 : Ref sig .tc := ⟨.hbm, 38, rfl⟩
abbrev main_call10_v0 : Ref sig .tc := ⟨.hbm, 39, rfl⟩
abbrev main_call10_v1 : Ref sig .tc := ⟨.hbm, 40, rfl⟩
abbrev main_v21 : Ref sig .tc := ⟨.hbm, 41, rfl⟩
abbrev main_v22 : Ref sig .tc := ⟨.hbm, 42, rfl⟩
abbrev main_call11_v0 : Ref sig .tc := ⟨.hbm, 43, rfl⟩
abbrev main_call11_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]

class Facts₀ : Prop where
  transposes_S4096x2048_S2048x4096_1_0 : S4096x2048.Transposes [1, 0] S2048x4096
  slices_S2048x4096_S2048x1_0_4095 : S2048x4096.Slices ![0, 4095] S2048x1
  slices_S2048x4096_S2048x4095_0_0 : S2048x4096.Slices ![0, 0] S2048x4095
  concatenates_S2048x1_S2048x4095_S2048x4096_d1 : Shape.Concatenates [S2048x1, S2048x4095] S2048x4096 1
  slices_S2048x4096_S1x4096_2047_0 : S2048x4096.Slices ![2047, 0] S1x4096
  slices_S2048x4096_S2047x4096_0_0 : S2048x4096.Slices ![0, 0] S2047x4096
  concatenates_S1x4096_S2047x4096_S2048x4096_d0 : Shape.Concatenates [S1x4096, S2047x4096] S2048x4096 0
  slices_S2048x4096_S2048x2_0_4094 : S2048x4096.Slices ![0, 4094] S2048x2
  slices_S2048x4096_S2048x4094_0_0 : S2048x4096.Slices ![0, 0] S2048x4094
  concatenates_S2048x2_S2048x4094_S2048x4096_d1 : Shape.Concatenates [S2048x2, S2048x4094] S2048x4096 1
  slices_S2048x4096_S2x4096_2046_0 : S2048x4096.Slices ![2046, 0] S2x4096
  slices_S2048x4096_S2046x4096_0_0 : S2048x4096.Slices ![0, 0] S2046x4096
  concatenates_S2x4096_S2046x4096_S2048x4096_d0 : Shape.Concatenates [S2x4096, S2046x4096] S2048x4096 0
  slices_S2048x4096_S2048x3_0_4093 : S2048x4096.Slices ![0, 4093] S2048x3
  slices_S2048x4096_S2048x4093_0_0 : S2048x4096.Slices ![0, 0] S2048x4093
  concatenates_S2048x3_S2048x4093_S2048x4096_d1 : Shape.Concatenates [S2048x3, S2048x4093] S2048x4096 1
  slices_S2048x4096_S3x4096_2045_0 : S2048x4096.Slices ![2045, 0] S3x4096
  slices_S2048x4096_S2045x4096_0_0 : S2048x4096.Slices ![0, 0] S2045x4096
  concatenates_S3x4096_S2045x4096_S2048x4096_d0 : Shape.Concatenates [S3x4096, S2045x4096] S2048x4096 0
  slices_S2048x4096_S2048x4_0_4092 : S2048x4096.Slices ![0, 4092] S2048x4
  slices_S2048x4096_S2048x4092_0_0 : S2048x4096.Slices ![0, 0] S2048x4092
  concatenates_S2048x4_S2048x4092_S2048x4096_d1 : Shape.Concatenates [S2048x4, S2048x4092] S2048x4096 1
  slices_S2048x4096_S4x4096_2044_0 : S2048x4096.Slices ![2044, 0] S4x4096
  slices_S2048x4096_S2044x4096_0_0 : S2048x4096.Slices ![0, 0] S2044x4096
  concatenates_S4x4096_S2044x4096_S2048x4096_d0 : Shape.Concatenates [S4x4096, S2044x4096] S2048x4096 0
  slices_S2048x4096_S2048x5_0_4091 : S2048x4096.Slices ![0, 4091] S2048x5
  slices_S2048x4096_S2048x4091_0_0 : S2048x4096.Slices ![0, 0] S2048x4091
  concatenates_S2048x5_S2048x4091_S2048x4096_d1 : Shape.Concatenates [S2048x5, S2048x4091] S2048x4096 1
  slices_S2048x4096_S5x4096_2043_0 : S2048x4096.Slices ![2043, 0] S5x4096
  slices_S2048x4096_S2043x4096_0_0 : S2048x4096.Slices ![0, 0] S2043x4096
  concatenates_S5x4096_S2043x4096_S2048x4096_d0 : Shape.Concatenates [S5x4096, S2043x4096] S2048x4096 0
  dot_S4x2048x2048_S2048x4096_S4x2048x4096_2_0_01_1_n_n_wf : DotDims.WF S4x2048x2048 S2048x4096 S4x2048x4096 [2] [0] [0, 1] [1] [] []

variable [Facts₀]

def dot_S4x2048x2048_S2048x4096_S4x2048x4096_2_0_01_1_n_n : DotDims S4x2048x2048 S2048x4096 S4x2048x4096 where
  lhsContracting := [2]
  rhsContracting := [0]
  lhsNonContracting := [0, 1]
  rhsNonContracting := [1]
  lhsBatch := []
  rhsBatch := []
  wf := dot_S4x2048x2048_S2048x4096_S4x2048x4096_2_0_01_1_n_n_wf

class Facts : Prop extends Facts₀ where

variable [Facts]
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.BlockProduct.lean ====
/-
  One grid point's arithmetic. The body loads a [1024, 2048] block of the flattened input and a [2048, 1024] block of
  the combined weight, narrows the first to bf16 (no change of value on the extended reals) and multiplies them into a
  zero accumulator. Read at row `p` and column `q` of the output block, the stored value is

      ∑ k : Fin 2048, x (p, k) * w (k, q),

  the sum over the 2048 contracted coordinates.
-/
import proofs.«179042_j85641647882598_2_alg».proof.Proof.Gen.KernelIdeal.Skeleton
import proofs.«179042_j85641647882598_2_alg».proof.Proof.LibBlock
import Idealize.ShloMosaic.Lib.Pipeline.Value
import Idealize.ShloMosaic.Lib.ValueIdx
import Idealize.ShloMosaic.PureOps.Ideal.Laws

noncomputable section

open scoped BigOperators

namespace Cert.KernelIdeal.Block

open Idealize.ShloMosaic Idealize.ShloMosaic.ValueIdx Cert.KernelIdeal Cert.KernelIdeal.Gen

/-- The block product at an entry: row `p` of the input block against column `q` of the weight block. -/
theorem pay_apply (x0 : Vec Ideal S1024x2048 .f32) (x1 : Vec Ideal S2048x1024 .bf16) (p : Fin 1024) (q : Fin 1024) :
    k0_pay1 (F := Ideal) x0 x1 (ix2 p q) = ∑ k : Fin 2048, x0 (ix2 p k) * x1 (ix2 k q) := by
  unfold k0_pay1
  simp only [shapeCast_self]
  exact Cert.LibBlock.matmul_zero_ix2 dot_S1024x2048_S2048x1024_S1024x1024_1_0_0_1_n_n rfl rfl rfl rfl rfl rfl none
    (truncf .bf16 x0 bitsLt_bf16_f32) x1 p q

end Cert.KernelIdeal.Block

end
-- ==== Proof.WholeProduct.lean ====
/-
  From blocks to the whole array. The grid has 8 × 4 points; point (bi, bj) reads rows bi·1024 … bi·1024 + 1023 of the
  flattened input (all 2048 columns) and columns bj·1024 … bj·1024 + 1023 of the combined weight (all 2048 rows), and writes
  back the [1024, 1024] block (bi, bj) of the output. An entry of a block is a block's coordinate offset by block index ×
  block size, so what each point writes back is the corresponding block of ONE function of the two whole arrays,

      prod a b (r, o) = ∑ k : Fin 2048, a (r, k) * b (k, o),

  and since the 32 blocks tile the [8192, 4096] output, the output array ends holding `prod` of the two arrays.
-/
import proofs.«179042_j85641647882598_2_alg».proof.Proof.Gen.KernelIdeal.Frame
import proofs.«179042_j85641647882598_2_alg».proof.Proof.BlockProduct
import Idealize.ShloMosaic.Lib.Pipeline.Value
import Idealize.ShloMosaic.Lib.ValueIdx

noncomputable section

open scoped BigOperators

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen

/-- Row `r` of the left array against column `o` of the right array. -/
def prodAt (a : S8192x2048.Idx → EReal) (b : S2048x4096.Idx → EReal) (r : Fin 8192) (o : Fin 4096) : EReal :=
  ∑ k : Fin 2048, a (ix2 r k) * b (ix2 k o)

/-- The whole matrix product [8192, 2048] × [2048, 4096], entry by entry. -/
def prod (a : S8192x2048.Idx → EReal) (b : S2048x4096.Idx → EReal) : S8192x4096.Idx → EReal :=
  fun i => prodAt a b ⟨(i 0).val, (i 0).isLt⟩ ⟨(i 1).val, (i 1).isLt⟩

theorem prod_ix2 (a : S8192x2048.Idx → EReal) (b : S2048x4096.Idx → EReal) (r : Fin 8192) (o : Fin 4096) :
    prod a b (ix2 r o) = prodAt a b r o := rfl

/-- One point's stored block is the matching block of `prod`: if the loaded input block is rows `bi·1024 + p` of `a`
    and the loaded weight block is columns `bj·1024 + q` of `b`, the stored value at `y` is `prod a b` at the array
    index whose coordinates are `y`'s offset by the block's position. -/
theorem point_eq (a : S8192x2048.Idx → EReal) (b : S2048x4096.Idx → EReal)
    (x0 : Vec Ideal S1024x2048 .f32) (x1 : Vec Ideal S2048x1024 .bf16) (bi bj : Nat)
    (h0 : ∀ (p : Fin 1024) (k : Fin 2048) (r : Fin 8192), r.val = bi * 1024 + p.val → x0 (ix2 p k) = a (ix2 r k))
    (h1 : ∀ (k : Fin 2048) (q : Fin 1024) (o : Fin 4096), o.val = bj * 1024 + q.val → x1 (ix2 k q) = b (ix2 k o))
    (y : S1024x1024.Idx) (i : S8192x4096.Idx)
    (hi0 : (i 0).val = bi * 1024 + (y 0).val) (hi1 : (i 1).val = bj * 1024 + (y 1).val) :
    k0_pay1 (F := Ideal) x0 x1 y = prod a b i := by
  obtain ⟨p, q, rfl⟩ : ∃ (p : Fin 1024) (q : Fin 1024), y = ix2 p q := ⟨y 0, y 1, eq_ix2 y⟩
  obtain ⟨r, o, rfl⟩ : ∃ (r : Fin 8192) (o : Fin 4096), i = ix2 r o := ⟨i 0, i 1, eq_ix2 i⟩
  rw [Cert.KernelIdeal.Block.pay_apply, prod_ix2]
  unfold prodAt
  refine Finset.sum_congr rfl fun k _ => ?_
  rw [h0 p k r hi0, h1 k q o hi1]

theorem hz : (![0, 0] : Fin 2 → Nat) = fun _ => 0 := funext fun a => by fin_cases a <;> rfl

variable (m : (ℓ : Loc nD τ sig) → Buf (Elt Ideal) ℓ)

/-- The printed index maps, decided over the 32 grid points: the input block moves with the output block's row, the
    weight block with its column, and each reads its whole contracted axis. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block position of the output is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- The input window's block at point `t`, read at `y`, is the flattened input at `y` offset by the block's position. -/
theorem iblk0_apply (c : Dev nD) (t : Fin cfg0.N) (y : S1024x2048.Idx) (i : S8192x2048.Idx)
    (h0 : (i 0).val = win0_0.index t (0 : Fin 2) * 1024 + (y 0).val)
    (h1 : (i 1).val = win0_0.index t (1 : Fin 2) * 2048 + (y 1).val) :
    iblk m c 0 t y = V m c main_call0_v25 i := by
  show V m c main_call0_v25 (((cfg0.win 0).blk t).view.emb y) = V m c main_call0_v25 i
  refine congrArg (V m c main_call0_v25) (funext fun a => Fin.ext ?_)
  match a with
  | ⟨0, _⟩ => show win0_0.index t (0 : Fin 2) * 1024 + 1 * (y 0).val = (i 0).val; omega
  | ⟨1, _⟩ => show win0_0.index t (1 : Fin 2) * 2048 + 1 * (y 1).val = (i 1).val; omega

/-- The weight window's block at point `t`, read at `y`, is the combined weight at `y` offset by the block's position. -/
theorem iblk1_apply (c : Dev nD) (t : Fin cfg0.N) (y : S2048x1024.Idx) (i : S2048x4096.Idx)
    (h0 : (i 0).val = win0_1.index t (0 : Fin 2) * 2048 + (y 0).val)
    (h1 : (i 1).val = win0_1.index t (1 : Fin 2) * 1024 + (y 1).val) :
    iblk m c 1 t y = V m c main_call0_v26 i := by
  show V m c main_call0_v26 (((cfg0.win 1).blk t).view.emb y) = V m c main_call0_v26 i
  refine congrArg (V m c main_call0_v26) (funext fun a => Fin.ext ?_)
  match a with
  | ⟨0, _⟩ => show win0_1.index t (0 : Fin 2) * 2048 + 1 * (y 0).val = (i 0).val; omega
  | ⟨1, _⟩ => show win0_1.index t (1 : Fin 2) * 1024 + 1 * (y 1).val = (i 1).val; omega

/-- What point `t` writes back is block `t` of the whole product of the two arrays as the region finds them. -/
theorem flushed_eq (c : Dev nD) (t : Fin cfg0.N) :
    (dats m 0 c).flushed 2 t
      = ((cfg0.win 2).blk t).view.read (Elt Ideal) (prod (V m c main_call0_v25) (V m c main_call0_v26)) := by
  show (cfg0.win 2).cut (grid0.coords t) ((dats m 0 c).after 2 t) = _
  rw [after0_2]
  unfold out0_2
  rw [View.canon_unit_zero hz]
  simp only [View.ld_unit_zero (S := S1024x2048) hz, View.ld_unit_zero (S := S2048x1024) hz]
  obtain ⟨e0, e1, e2, e3⟩ := idx_facts t
  funext j
  show k0_pay1 (F := Ideal) (iblk m c 0 t) (iblk m c 1 t) j
    = prod (V m c main_call0_v25) (V m c main_call0_v26) (((cfg0.win 2).blk t).view.emb j)
  refine point_eq (V m c main_call0_v25) (V m c main_call0_v26) (iblk m c 0 t) (iblk m c 1 t)
    (win0_2.index t (0 : Fin 2)) (win0_2.index t (1 : Fin 2)) ?_ ?_ j (((cfg0.win 2).blk t).view.emb j) ?_ ?_
  · intro p k r hr
    refine iblk0_apply m c t (ix2 p k) (ix2 r k) ?_ ?_
    · show r.val = win0_0.index t (0 : Fin 2) * 1024 + p.val; omega
    · show k.val = win0_0.index t (1 : Fin 2) * 2048 + k.val; omega
  · intro k q o ho
    refine iblk1_apply m c t (ix2 k q) (ix2 k o) ?_ ?_
    · show k.val = win0_1.index t (0 : Fin 2) * 2048 + k.val; omega
    · show o.val = win0_1.index t (1 : Fin 2) * 1024 + q.val; omega
  · show win0_2.index t (0 : Fin 2) * 1024 + 1 * (j 0).val = win0_2.index t (0 : Fin 2) * 1024 + (j 0).val; omega
  · show win0_2.index t (1 : Fin 2) * 1024 + 1 * (j 1).val = win0_2.index t (1 : Fin 2) * 1024 + (j 1).val; omega

/-- An index of the output array is in point `t`'s block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_call0_v27).slice (win0_2.rect t)).set ↔ _
  rw [View.set_slice_whole, Rect.mem_set_unit]
  exact Iff.rfl

/-- The 32 blocks cover the output: entry (r, o) lies in the block at position (r / 1024, o / 1024). -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The output array after the region: the whole product of the two arrays the region found. -/
theorem final (c : Dev nD) :
    (dats m 0 c).arrAt 2 cfg0.N = prod (V m c main_call0_v25) (V m c main_call0_v26) :=
  (dats m 0 c).arrAt_eq_of_cover 2 (prod (V m c main_call0_v25) (V m c main_call0_v26))
    (fun t _ => flushed_eq m c t) cover

end Cert.KernelIdeal.Whole

end
-- ==== Proof.ArraysAtEntry.lean ====
/-
  The two arrays the matrix product reads, as the region finds them. Before the region the host flattens the input
  [4, 2048, 2048] to [8192, 2048] (row-major), and builds the combined weight — the transposed weight plus its two flips
  plus its ten rolls, added in a fixed order — which it then narrows to bf16. The reference builds the combined weight by
  the same operations in the same order, so it is carried here as ONE function of the weight argument, never opened.
-/
import proofs.«179042_j85641647882598_2_alg».proof.Proof.Gen.KernelIdeal.Frame
import proofs.«179042_j85641647882598_2_alg».proof.Proof.Gen.ReferenceIdeal.Read
import Idealize.ShloMosaic.Lib.StableHlo.Run

noncomputable section

namespace Cert.KernelIdeal.Entry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The combined weight as a function of the weight argument: the reference's own stage for it. -/
abbrev weff (W : S4096x2048.Idx → EReal) : S2048x4096.Idx → EReal :=
  Cert.ReferenceIdeal.Read.val_main_v24 (F := Ideal) W

/-- The left operand's array at region entry is the input flattened row-major. -/
theorem V_x (c : Dev nD) :
    (V m c main_call0_v25 : S8192x2048.Idx → EReal)
      = shapeCast S8192x2048 (m ((c : Thread nD τ).loc main_arg0) : S4x2048x2048.Idx → EReal) shapeCasts_S4x2048x2048_S8192x2048 := by
  show StableHlo.after hostOps0 (fun b => m (c, b)) (Proc.devRef .tc main_call0_v25) = _
  after_results_simp
  rfl

set_option maxRecDepth 65536 in
/-- The right operand's array at region entry is the combined weight (narrowing to bf16 changes no extended real). -/
theorem V_w (c : Dev nD) :
    (V m c main_call0_v26 : S2048x4096.Idx → EReal) = weff (m ((c : Thread nD τ).loc main_arg1)) := by
  show StableHlo.after hostOps0 (fun b => m (c, b)) (Proc.devRef .tc main_call0_v26) = _
  after_results_simp
  rfl

end Cert.KernelIdeal.Entry

end
-- ==== Proof.KernelRun.lean ====
/-
  The kernel program's run, read. After the region the output array holds the whole product of the flattened input and
  the combined weight; the one host operation after the region unflattens its rows, [8192, 4096] → [4, 2048, 4096]. So
  the program's result is `value` of its two arguments, and the arguments end unchanged.
-/
import proofs.«179042_j85641647882598_2_alg».proof.Proof.WholeProduct
import proofs.«179042_j85641647882598_2_alg».proof.Proof.ArraysAtEntry
import Idealize.ShloMosaic.Lib.StableHlo.Run

noncomputable section

namespace Cert.KernelIdeal.Run

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The result as a function of the arguments: flatten the input, multiply by the combined weight, unflatten. -/
def value (x : S4x2048x2048.Idx → EReal) (W : S4096x2048.Idx → EReal) : S4x2048x4096.Idx → EReal :=
  shapeCast S4x2048x4096
    (Whole.prod (shapeCast S8192x2048 x shapeCasts_S4x2048x2048_S8192x2048) (Entry.weff W))
    shapeCasts_S8192x4096_S4x2048x4096

/-- The output array as the host tail finds it. -/
theorem out_array (c : Dev nD) :
    (Pipeline.withArrays spec0 c (V0 m c) (fun w => (dats m 0 c).arrAt w cfg0.N) (Proc.devRef .tc main_call0_v27)
        : S8192x4096.Idx → EReal)
      = Whole.prod (shapeCast S8192x2048 (m ((c : Thread nD τ).loc main_arg0) : S4x2048x2048.Idx → EReal)
          shapeCasts_S4x2048x2048_S8192x2048) (Entry.weff (m ((c : Thread nD τ).loc main_arg1))) := by
  refine (Pipeline.withArrays_arr spec0 launch0.win.arr_inj c _ _ 2).trans ?_
  show (dats m 0 c).arrAt 2 cfg0.N = _
  rw [Whole.final m c, Entry.V_x m c, Entry.V_w m c]

/-- The result buffer after the host tail. -/
theorem tail_value (c : Dev nD) :
    (Pipeline.afterTail₀ cfgs (dats m) 0 (V0 m) [hostOps1] c main_v0 : S4x2048x4096.Idx → EReal)
      = value (m ((c : Thread nD τ).loc main_arg0)) (m ((c : Thread nD τ).loc main_arg1)) := by
  unfold Pipeline.afterTail₀
  show StableHlo.after hostOps1 _ (Proc.devRef .tc main_v0) = _
  after_results
  rw [out_array m c]
  rfl

/-- Every weakly fair execution of the kernel program ends with its result at `value` of the arguments, the arguments
    unchanged. -/
theorem run : θ_run defs (onTc (τ := τ) (main (F := Ideal))) ⟨m, fun _ => 0, ρ⟩ fun r => ∀ c : Dev nD,
      r.2.mem ((c : Thread nD τ).loc main_v0)
        = value (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0 (Pipeline.mem_restRefs_of main_v0 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Run

end
-- ==== Proof.Bridge.lean ====
/-
  The two sides are one function. Write the result entry (b, s, o) as

      contract x w (b, s, o) = ∑ k : Fin 2048, x (b, s, k) * w (k, o).

  The reference's contraction of the rank-3 input with the combined weight is this sum as it stands. The kernel flattens
  (b, s) to the row b·2048 + s (row-major), forms the [8192, 2048] × [2048, 4096] product, and unflattens the rows again:
  the row-major position of (b, s, o) in [4, 2048, 4096] is that of (b·2048 + s, o) in [8192, 4096], and the row-major
  position of (b, s, k) in [4, 2048, 2048] is that of (b·2048 + s, k) in [8192, 2048], so each term of the sum is the same
  product. Only a renaming of indices joins the two sides: no law of arithmetic on the extended reals is used, and the
  right factor `w` is never opened.
-/
import proofs.«179042_j85641647882598_2_alg».proof.Proof.WholeProduct
import proofs.«179042_j85641647882598_2_alg».proof.Proof.Gen.ReferenceIdeal.Read
import Idealize.ShloMosaic.Lib.Pipeline.Value
import Idealize.ShloMosaic.Lib.ValueIdx

noncomputable section

open scoped BigOperators

namespace Cert.Bridge

open Idealize.ShloMosaic Idealize.ShloMosaic.ValueIdx
open Cert.KernelIdeal (S4x2048x2048 S8192x2048 S2048x4096 S8192x4096 S4x2048x4096 S4096x2048)
open Cert.KernelIdeal.Whole (prod prodAt prod_ix2)

/-- Entry (b, s, o) of the contraction of `x`'s last axis with `w`'s first. -/
def contractAt (x : S4x2048x2048.Idx → EReal) (w : S2048x4096.Idx → EReal) (b : Fin 4) (s : Fin 2048) (o : Fin 4096) : EReal :=
  ∑ k : Fin 2048, x (ix3 b s k) * w (ix2 k o)

/-- The contraction [4, 2048, 2048] · [2048, 4096] → [4, 2048, 4096], entry by entry. -/
def contract (x : S4x2048x2048.Idx → EReal) (w : S2048x4096.Idx → EReal) : S4x2048x4096.Idx → EReal :=
  fun i => contractAt x w ⟨(i 0).val, (i 0).isLt⟩ ⟨(i 1).val, (i 1).isLt⟩ ⟨(i 2).val, (i 2).isLt⟩

theorem contract_ix3 (x : S4x2048x2048.Idx → EReal) (w : S2048x4096.Idx → EReal) (b : Fin 4) (s : Fin 2048) (o : Fin 4096) :
    contract x w (ix3 b s o) = contractAt x w b s o := rfl

/-- The flattened input at row b·2048 + s and column k is the input at (b, s, k). -/
theorem flat_apply (x : S4x2048x2048.Idx → EReal) (h : S4x2048x2048.ShapeCasts S8192x2048)
    (b : Fin 4) (s : Fin 2048) (k : Fin 2048) (r : Fin 8192) (hr : r.val = b.val * 2048 + s.val) :
    shapeCast S8192x2048 x h (ix2 r k) = x (ix3 b s k) :=
  shapeCast_apply x h (ix2 r k) (ix3 b s k) (by
    rw [Shape.rowMajor_val_three, Shape.rowMajor_val_two]
    show (b.val * 2048 + s.val) * 2048 + k.val = r.val * 2048 + k.val
    rw [hr])

/-- THE KERNEL'S SIDE: flatten, multiply, unflatten is the contraction. -/
theorem flat_product (x : S4x2048x2048.Idx → EReal) (w : S2048x4096.Idx → EReal)
    (h1 : S4x2048x2048.ShapeCasts S8192x2048) (h2 : S8192x4096.ShapeCasts S4x2048x4096) :
    shapeCast S4x2048x4096 (prod (shapeCast S8192x2048 x h1) w) h2 = contract x w := by
  funext i
  obtain ⟨b, s, o, rfl⟩ : ∃ (b : Fin 4) (s : Fin 2048) (o : Fin 4096), i = ix3 b s o := ⟨i 0, i 1, i 2, eq_ix3 i⟩
  have hlt : b.val * 2048 + s.val < 8192 := by omega
  refine (shapeCast_apply (prod (shapeCast S8192x2048 x h1) w) h2 (ix3 b s o)
    (ix2 (⟨b.val * 2048 + s.val, hlt⟩ : Fin 8192) o) (by
      rw [Shape.rowMajor_val_two, Shape.rowMajor_val_three]
      show (b.val * 2048 + s.val) * 4096 + o.val = (b.val * 2048 + s.val) * 4096 + o.val
      rfl)).trans ?_
  rw [prod_ix2, contract_ix3]
  unfold prodAt contractAt
  refine Finset.sum_congr rfl fun k _ => ?_
  rw [flat_apply x h1 b s k ⟨b.val * 2048 + s.val, hlt⟩ rfl]

/-- THE REFERENCE'S SIDE: its contraction stage, read at an index, is the same sum over the same right factor. -/
theorem reference_value (x : S4x2048x2048.Idx → EReal) (W : S4096x2048.Idx → EReal) :
    Cert.ReferenceIdeal.Read.val_main_v25 (F := Ideal) x W
      = contract x (Cert.ReferenceIdeal.Read.val_main_v24 (F := Ideal) W) := by
  funext i
  obtain ⟨b, s, o, rfl⟩ : ∃ (b : Fin 4) (s : Fin 2048) (o : Fin 4096), i = ix3 b s o := ⟨i 0, i 1, i 2, eq_ix3 i⟩
  refine (Cert.ReferenceIdeal.Read.val_main_v25_apply x W (ix3 b s o)).trans ?_
  rw [contract_ix3]
  unfold contractAt
  refine Finset.sum_congr rfl fun k _ => ?_
  have el : Cert.ReferenceIdeal.Read.lidx_main_v25 (ix3 b s o) k = ix3 b s k := funext fun a => Fin.ext (by
    match a with
    | ⟨0, _⟩ => rfl
    | ⟨1, _⟩ => rfl
    | ⟨2, _⟩ => rfl)
  have er : Cert.ReferenceIdeal.Read.ridx_main_v25 (ix3 b s o) k = ix2 k o := funext fun a => Fin.ext (by
    match a with
    | ⟨0, _⟩ => rfl
    | ⟨1, _⟩ => rfl)
  rw [el, er]

end Cert.Bridge

end
-- ==== Proof.lean ====
/-
  A dense layer whose weight is a sum of thirteen rearrangements of one matrix, against its one-matrix-product reference.

  Both programs first build the combined weight `Weff` [2048, 4096] from the weight argument `W` [4096, 2048]: the
  transpose of `W`, plus its flip along each axis, plus its roll by 1 … 5 along each axis (each roll two slices joined),
  all added in one fixed order. The two programs do this by the same operations in the same order, so `Weff` is carried
  through the proof as one unopened function of `W`.

  The reference then contracts the input `x` [4, 2048, 2048] with `Weff` over the shared axis:
      out (b, s, o) = ∑ k : Fin 2048, x (b, s, k) * Weff (k, o).
  The kernel flattens `x` to [8192, 2048], narrows `Weff` to bf16 (no change of value on the extended reals), computes
  the [8192, 2048] × [2048, 4096] product in 8 × 4 blocks of [1024, 1024] — each block one product into a zero accumulator
  over the whole contracted axis — and unflattens the result to [4, 2048, 4096]. Since the blocks tile the output, the
  output array is the whole product, and flattening (b, s) to the row b·2048 + s and back only renames the indices of
  the same sum. No law of arithmetic on the extended reals is needed beyond that renaming, so finiteness of the inputs
  is never used.

  The idealized kernel is the kernel's own text read over the extended reals, with no operation replaced, so the
  statement that it idealizes the kernel is trivially true.
-/
import proofs.«179042_j85641647882598_2_alg».proof.Defs
import proofs.«179042_j85641647882598_2_alg».proof.Proof.Gen.Kernel
import proofs.«179042_j85641647882598_2_alg».proof.Proof.Gen.Kernel.Skeleton
import proofs.«179042_j85641647882598_2_alg».proof.Proof.Gen.Kernel.Launch
import proofs.«179042_j85641647882598_2_alg».proof.Proof.Gen.Kernel.Points
import proofs.«179042_j85641647882598_2_alg».proof.Proof.Gen.Kernel.Frame
import proofs.«179042_j85641647882598_2_alg».proof.Proof.Gen.KernelIdeal
import proofs.«179042_j85641647882598_2_alg».proof.Proof.Gen.KernelIdeal.Skeleton
import proofs.«179042_j85641647882598_2_alg».proof.Proof.Gen.KernelIdeal.Launch
import proofs.«179042_j85641647882598_2_alg».proof.Proof.Gen.KernelIdeal.Points
import proofs.«179042_j85641647882598_2_alg».proof.Proof.Gen.KernelIdeal.Frame
import proofs.«179042_j85641647882598_2_alg».proof.Proof.Gen.ReferenceIdeal
import proofs.«179042_j85641647882598_2_alg».proof.Proof.Gen.Pre_finite_inputs
import proofs.«179042_j85641647882598_2_alg».proof.Proof.Gen.ReferenceIdeal.Run
import proofs.«179042_j85641647882598_2_alg».proof.Proof.Gen.ReferenceIdeal.Read
import proofs.«179042_j85641647882598_2_alg».proof.Proof.KernelRun
import proofs.«179042_j85641647882598_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the contraction of the input with the combined weight: the kernel's flatten–multiply–unflatten
    by `Bridge.flat_product`, the reference's contraction stage by `Bridge.reference_value`, over arguments that agree. -/
theorem algebraic : Cert.algebraic_KernelIdeal_ReferenceIdeal := by
  intro m ρ m' ρ' _ hagree
  refine ⟨fun c => Cert.Bridge.contract
      (m ((c.tc : Thread Cert.KernelIdeal.nD Cert.KernelIdeal.τ).loc Cert.KernelIdeal.main_arg0))
      (Cert.KernelIdeal.Entry.weff (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Run.run m ρ)
    exact Cert.Bridge.flat_product _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2]
    exact Cert.Bridge.reference_value _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
